-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S512x768 : Shape := ⟨2, ![512, 768]⟩
abbrev S512 : Shape := ⟨1, ![512]⟩
abbrev S32x512 : Shape := ⟨2, ![32, 512]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_

variable [Facts]

def fn_part1 {F : FTy → Type} [FloatOps F] (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  main_v18

def fn {F : FTy → Type} [FloatOps F] (main_arg0 : FVec F S4x2048x768 .f32) (main_arg1 : FVec F S512x768 .f32) (main_arg2 : FVec F S512 .f32) (main_arg3 : FVec F S32x512 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_v13 main_v16
-- ==== Kernel.lean ====
abbrev S4x2048x768 : Shape := ⟨3, ![4, 2048, 768]⟩
abbrev S512x768 : Shape := ⟨2, ![512, 768]⟩
abbrev S512 : Shape := ⟨1, ![512]⟩
abbrev S32x512 : Shape := ⟨2, ![32, 512]⟩
abbrev S4x2048x32 : Shape := ⟨3, ![4, 2048, 32]⟩
abbrev S1x1024x768 : Shape := ⟨3, ![1, 1024, 768]⟩
abbrev S1x1024x32 : Shape := ⟨3, ![1, 1024, 32]⟩
abbrev S1024x768 : Shape := ⟨2, ![1024, 768]⟩
abbrev S1024x512 : Shape := ⟨2, ![1024, 512]⟩
abbrev S1x512 : Shape := ⟨2, ![1, 512]⟩
abbrev S1024 : Shape := ⟨1, ![1024]⟩
abbrev S1024x1 : Shape := ⟨2, ![1024, 1]⟩
abbrev S32 : Shape := ⟨1, ![32]⟩
abbrev S1024x32 : Shape := ⟨2, ![1024, 32]⟩
abbrev S1x32 : Shape := ⟨2, ![1, 32]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x768, .f32⟩
  | .hbm, ⟨1, _⟩ => ⟨S512x768, .f32⟩
  | .hbm, ⟨2, _⟩ => ⟨S512, .f32⟩
  | .hbm, ⟨3, _⟩ => ⟨S32x512, .f32⟩
  | .hbm, ⟨4, _⟩ => ⟨S4x2048x32, .f32⟩
  | .local _ .vmem, ⟨0, _⟩ => ⟨S1x1024x768, .f32⟩
  | .local _ .vmem, ⟨1, _⟩ => ⟨S1x1024x768, .f32⟩
  | .local _ .vmem, ⟨2, _⟩ => ⟨S512x768, .f32⟩
  | .local _ .vmem, ⟨3, _⟩ => ⟨S512, .f32⟩
  | .local _ .vmem, ⟨4, _⟩ => ⟨S32x512, .f32⟩
  | .local _ .vmem, ⟨5, _⟩ => ⟨S1x1024x32, .f32⟩
  | .local _ .vmem, ⟨6, _⟩ => ⟨S1x1024x32, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S32x512_S32x512_0_0 : ∀ a, (![0, 0] : Fin 2 → Nat) a + S32x512.size a ≤ S32x512.size a
  h_S32x512 : 0 < S32x512.numel
  reduces_S1024x512_S1024 : S1024x512.Reduces [1] S1024
  shapeCasts_S1024_S1024x1 : S1024.ShapeCasts S1024x1
  reduces_S32x512_S32 : S32x512.Reduces [1] S32
  broadcasts_S1024x1_S1024x32 : S1024x1.Broadcasts S1024x32
  shapeCasts_S32_S1x32 : S32.ShapeCasts S1x32
  broadcasts_S1x32_S1024x32 : S1x32.Broadcasts S1024x32
  reduces_S1024x32_S1024 : S1024x32.Reduces [1] S1024
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  dot_S1024x768_S512x768_S1024x512_1_1_0_0_n_n_wf : DotDims.WF S1024x768 S512x768 S1024x512 [1] [1] [0] [0] [] []
  dot_S1024x512_S32x512_S1024x32_1_1_0_0_n_n_wf : DotDims.WF S1024x512 S32x512 S1024x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x2048x768.size a
  hwx0_0 : ∀ i : grid0.Coords, EltTy.bits .f32 = 32 ∨ (Rect.block (s := S4x2048x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .f32 = 32 ∨ (Rect.block (s := S512x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x32.size a ≤ S4x2048x32.size a
  hwx0_4 : ∀ i : grid0.Coords, EltTy.bits .f32 = 32 ∨ (Rect.block (s := S4x2048x32) S1x1024x32.size (cc0_transform_4 i) (hinb0_4 i)).WholeWords (EltTy.packing .f32)

variable [Facts₀]

def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf
def dot_S1024x512_S32x512_S1024x32_1_1_0_0_n_n : DotDims S1024x512 S32x512 S1024x32 where
  lhsContracting := [1]
  rhsContracting := [1]
  lhsNonContracting := [0]
  rhsNonContracting := [0]
  lhsBatch := []
  rhsBatch := []
  wf := dot_S1024x512_S32x512_S1024x32_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S512x768 : Shape := ⟨2, ![512, 768]⟩
abbrev S512 : Shape := ⟨1, ![512]⟩
abbrev S32x512 : Shape := ⟨2, ![32, 512]⟩
abbrev S4x2048x512 : Shape := ⟨3, ![4, 2048, 512]⟩
abbrev S1x1x512 : Shape := ⟨3, ![1, 1, 512]⟩
abbrev S4x2048x1x512 : Shape := ⟨4, ![4, 2048, 1, 512]⟩
abbrev S1x1x32x512 : Shape := ⟨4, ![1, 1, 32, 512]⟩
abbrev S4x2048x32x512 : Shape := ⟨4, ![4, 2048, 32, 512]⟩
abbrev S_ : Shape := ⟨0, ![]⟩
abbrev S4x2048x32 : Shape := ⟨3, ![4, 2048, 32]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S512x768, .f32⟩
  | .hbm, ⟨2, _⟩ => ⟨S512, .f32⟩
  | .hbm, ⟨3, _⟩ => ⟨S32x512, .f32⟩
  | .hbm, ⟨4, _⟩ => ⟨S4x2048x512, .f32⟩
  | .hbm, ⟨5, _⟩ => ⟨S1x1x512, .f32⟩
  | .hbm, ⟨6, _⟩ => ⟨S4x2048x512, .f32⟩
  | .hbm, ⟨7, _⟩ => ⟨S4x2048x512, .f32⟩
  | .hbm, ⟨8, _⟩ => ⟨S4x2048x1x512, .f32⟩
  | .hbm, ⟨9, _⟩ => ⟨S1x1x32x512, .f32⟩
  | .hbm, ⟨10, _⟩ => ⟨S4x2048x32x512, .f32⟩
  | .hbm, ⟨11, _⟩ => ⟨S4x2048x32x512, .f32⟩
  | .hbm, ⟨12, _⟩ => ⟨S4x2048x32x512, .f32⟩
  | .hbm, ⟨13, _⟩ => ⟨S4x2048x32x512, .f32⟩
  | .hbm, ⟨14, _⟩ => ⟨S_, .f32⟩
  | .hbm, ⟨15, _⟩ => ⟨S4x2048x32, .f32⟩
  | .hbm, ⟨16, _⟩ => ⟨S4x2048x32, .f32⟩
  | .hbm, ⟨17, _⟩ => ⟨S4x2048x32, .f32⟩
  | .hbm, ⟨18, _⟩ => ⟨S_, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .f32⟩
  | .hbm, ⟨23, _⟩ => ⟨S4x2048x1, .f32⟩
  | .hbm, ⟨24, _⟩ => ⟨S4x2048x32, .f32⟩
  | .hbm, ⟨25, _⟩ => ⟨S4x2048x32, .f32⟩
  | .hbm, ⟨26, _⟩ => ⟨S4x2048x32, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S4x2048x32, .f32⟩
  | .hbm, ⟨31, _⟩ => ⟨S4x2048x32, .f32⟩
  | .hbm, ⟨32, _⟩ => ⟨S_, .f32⟩
  | .hbm, ⟨33, _⟩ => ⟨S4x2048x32, .f32⟩
  | .hbm, ⟨34, _⟩ => ⟨S4x2048x32, .i1⟩
  | .hbm, ⟨35, _⟩ => ⟨S_, .f32⟩
  | .hbm, ⟨36, _⟩ => ⟨S_, .f32⟩
  | .hbm, ⟨37, _⟩ => ⟨S4x2048x32, .f32⟩
  | .hbm, ⟨38, _⟩ => ⟨S4x2048x32, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  bcast_S4x2048x512_S4x2048x1x512_0_1_3 : S4x2048x512.BroadcastsInDim S4x2048x1x512 (![0, 1, 3] : Fin 3 → Fin S4x2048x1x512.rank)
  bcast_S32x512_S1x1x32x512_2_3 : S32x512.BroadcastsInDim S1x1x32x512 (![2, 3] : Fin 2 → Fin S1x1x32x512.rank)
  bcast_S4x2048x1x512_S4x2048x32x512_0_1_2_3 : S4x2048x1x512.BroadcastsInDim S4x2048x32x512 (![0, 1, 2, 3] : Fin 4 → Fin S4x2048x32x512.rank)
  bcast_S1x1x32x512_S4x2048x32x512_0_1_2_3 : S1x1x32x512.BroadcastsInDim S4x2048x32x512 (![0, 1, 2, 3] : Fin 4 → Fin S4x2048x32x512.rank)
  reducesTo_S4x2048x32x512_S4x2048x32_d3 : S4x2048x32x512.ReducesTo [3] S4x2048x32
  h_S_ : 0 < S_.numel
  reducesTo_S4x2048x32_S4x2048_d2 : S4x2048x32.ReducesTo [2] S4x2048
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x32_0_1_2 : S4x2048x1.BroadcastsInDim S4x2048x32 (![0, 1, 2] : Fin 3 → Fin S4x2048x32.rank)
  bcast_S_S4x2048x32 : S_.BroadcastsInDim S4x2048x32 (![] : Fin 0 → Fin S4x2048x32.rank)
  dot_S4x2048x768_S512x768_S4x2048x512_2_1_01_0_n_n_wf : DotDims.WF S4x2048x768 S512x768 S4x2048x512 [2] [1] [0, 1] [0] [] []

variable [Facts₀]

def dot_S4x2048x768_S512x768_S4x2048x512_2_1_01_0_n_n : DotDims S4x2048x768 S512x768 S4x2048x512 where
  lhsContracting := [2]
  rhsContracting := [1]
  lhsNonContracting := [0, 1]
  rhsNonContracting := [0]
  lhsBatch := []
  rhsBatch := []
  wf := dot_S4x2048x768_S512x768_S4x2048x512_2_1_01_0_n_n_wf

class Facts : Prop extends Facts₀ where

variable [Facts]
-- ==== Proof.RowMath.lean ====
/-
  The mathematics of one row, on the extended reals, with no program in sight.

  A row `p` of a projected matrix is compared with every row `q` of a codebook by the squared Euclidean distance.
  One side adds up the squares of the differences, `∑ (p h - q h)²`; the other expands the square,
  `∑ p h² - 2 ∑ p h q h + ∑ q h²`, and clips the result at zero. On real entries the two agree: the expansion is the
  binomial formula term by term, and a sum of squares is never negative, so the clip does nothing. (With an infinite
  entry the expansion meets `∞ - ∞`; this is where finiteness of the inputs is used.)

  From the row of squared distances both sides then form the same numbers: the negated root, a softmax over the row
  (subtract the row's maximum, exponentiate, divide by the sum) and a threshold that zeroes small probabilities. The two
  spellings differ only by neutral elements: `0 - x` for `-x`, a maximum taken once more against its own starting
  value, and a sum started from an explicit zero.
-/
import Idealize.ShloMosaic.PureOps.Ideal
import Idealize.ShloMosaic.PureOps.Ideal.Laws

noncomputable section

open scoped BigOperators

namespace Cert.RowMath

open Idealize.ShloMosaic

/-- The pattern of `2.0` denotes the real number 2. -/
theorem ofBits_two : Ideal.ofBits .f32 0x40000000#32 = ((2 : ℝ) : EReal) := by
  simp [Ideal.ofBits, Ideal.ieee, -EReal.coe_mul]; norm_num

/-- A finite sum of reals, each read as an extended real, is the real sum read as an extended real. -/
theorem coe_sum {n : ℕ} (f : Fin n → ℝ) : (∑ k, ((f k : ℝ) : EReal)) = ((∑ k, f k : ℝ) : EReal) := by
  have key : ∀ s : Finset (Fin n), (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact key _

variable {n : ℕ}

/-- The squared distance as a sum of squared differences, started from the zero pattern. -/
def distSum (p q : Fin n → EReal) : EReal :=
  Ideal.ofBits .f32 0x00000000#32 + ∑ h, (p h - q h) * (p h - q h)

/-- The squared distance by the expanded square, clipped at zero. -/
def distExpand (p q : Fin n → EReal) : EReal :=
  max ((∑ h, p h * p h - Ideal.ofBits .f32 0x40000000#32 * ∑ h, p h * q h) + ∑ h, q h * q h)
    (Ideal.ofBits .f32 0x00000000#32)

/-- On real entries the expanded and clipped form is the sum of squared differences. -/
theorem distExpand_eq_distSum (p q : Fin n → EReal) (hp : ∀ h, ∃ r : ℝ, p h = (r : EReal))
    (hq : ∀ h, ∃ r : ℝ, q h = (r : EReal)) : distExpand p q = distSum p q := by
  choose p' hp' using hp
  choose q' hq' using hq
  obtain rfl : p = fun h => ((p' h : ℝ) : EReal) := funext hp'
  obtain rfl : q = fun h => ((q' h : ℝ) : EReal) := funext hq'
  unfold distExpand distSum
  rw [Ideal.ofBits_zero_f32, ofBits_two]
  simp only [← EReal.coe_mul, ← EReal.coe_sub, coe_sum, ← EReal.coe_add, zero_add]
  have key : (∑ h, p' h * p' h - 2 * ∑ h, p' h * q' h) + ∑ h, q' h * q' h = ∑ h, (p' h - q' h) * (p' h - q' h) := by
    rw [Finset.mul_sum, ← Finset.sum_sub_distrib, ← Finset.sum_add_distrib]
    exact Finset.sum_congr rfl fun h _ => by ring
  rw [key]
  exact max_eq_left (EReal.coe_nonneg.mpr (Finset.sum_nonneg fun h _ => mul_self_nonneg _))

/-- The softmax of the negated roots of a row of squared distances, thresholded: the spelling that negates, guards the
    maximum once more against minus infinity, and starts the sum from an explicit zero. -/
def softmaxGuarded (d : Fin n → EReal) (o : Fin n) : EReal :=
  let dis : Fin n → EReal := fun k => -(Ideal.sqrt (d k))
  let mx : EReal := max (Ideal.ofBits .f32 0xFF800000#32) ((Finset.univ : Finset (Fin n)).fold max (Ideal.ofBits .f32 0xFF800000#32) dis)
  let e : Fin n → EReal := fun k => Ideal.exp (dis k - mx)
  let pr : EReal := Ideal.div (e o) (Ideal.ofBits .f32 0x00000000#32 + ∑ k, e k)
  Scalar.select (Ideal.cmp .olt pr (Ideal.ofBits .f32 0x3E99999A#32)) (Ideal.ofBits .f32 0x00000000#32) pr

/-- The same with `0 - x` for the negation, the bare maximum and the bare sum. -/
def softmaxPlain (d : Fin n → EReal) (o : Fin n) : EReal :=
  let dis : Fin n → EReal := fun k => Ideal.ofBits .f32 0x00000000#32 - Ideal.sqrt (d k)
  let mx : EReal := (Finset.univ : Finset (Fin n)).fold max (Ideal.ofBits .f32 0xFF800000#32) dis
  let e : Fin n → EReal := fun k => Ideal.exp (dis k - mx)
  let pr : EReal := Ideal.div (e o) (∑ k, e k)
  Scalar.select (Ideal.cmp .olt pr (Ideal.ofBits .f32 0x3E99999A#32)) (Ideal.ofBits .f32 0x00000000#32) pr

/-- A maximum folded from a starting value is at least that value, so one more maximum against it changes nothing. -/
theorem max_fold_start (a : EReal) (f : Fin n → EReal) :
    max a ((Finset.univ : Finset (Fin n)).fold max a f) = (Finset.univ : Finset (Fin n)).fold max a f :=
  max_eq_right ((Finset.le_fold_max _).mpr (Or.inl le_rfl))

/-- The two spellings are one function of the row, on every extended real. -/
theorem softmaxPlain_eq_softmaxGuarded (d : Fin n → EReal) (o : Fin n) : softmaxPlain d o = softmaxGuarded d o := by
  unfold softmaxPlain softmaxGuarded
  simp only [max_fold_start, Ideal.ofBits_zero_f32, zero_sub, zero_add]

end Cert.RowMath

end
-- ==== Proof.Spec.lean ====
/-
  The result array as one function of the four argument arrays, in the two arrangements the two programs use.

  For batch `bi`, position `s` and code `o`: the projected row is `proj h = ∑ e, X (bi, s, e) · W (h, e) + B h`; its squared
  distance to code row `k` is taken either as a sum of squared differences or by the expanded square (RowMath); and
  entry `o` of the thresholded softmax of the negated roots over the 32 codes is the result. On finite inputs every
  projected entry is a real number, so the two arrangements are one array.
-/
import proofs.«132923_j45260365365546_2_alg».proof.Proof.RowMath
import Idealize.ShloMosaic.Lib.ValueIdx

noncomputable section

open scoped BigOperators

namespace Cert.Spec

open Idealize.ShloMosaic Idealize.ShloMosaic.ValueIdx Cert.RowMath

variable (X : (⟨3, ![4, 2048, 768]⟩ : Shape).Idx → EReal) (W : (⟨2, ![512, 768]⟩ : Shape).Idx → EReal)
  (B : (⟨1, ![512]⟩ : Shape).Idx → EReal) (Op : (⟨2, ![32, 512]⟩ : Shape).Idx → EReal)

/-- Entry `h` of the projection of row `(bi, s)`: the row of `X` against row `h` of `W`, plus the bias. -/
def proj (bi : Fin 4) (s : Fin 2048) (h : Fin 512) : EReal :=
  (∑ e : Fin 768, X (ix3 bi s e) * W (ix2 h e)) + B (ix1 h)

/-- Row `k` of the codebook. -/
def code (k : Fin 32) : Fin 512 → EReal := fun h => Op (ix2 k h)

/-- Entry `(bi, s, o)` of the result with distances as sums of squared differences. -/
def entrySum (bi : Fin 4) (s : Fin 2048) (o : Fin 32) : EReal :=
  softmaxGuarded (fun k => distSum (proj X W B bi s) (code Op k)) o

/-- Entry `(bi, s, o)` of the result with distances by the expanded square. -/
def entryExpansion (bi : Fin 4) (s : Fin 2048) (o : Fin 32) : EReal :=
  softmaxPlain (fun k => distExpand (proj X W B bi s) (code Op k)) o

/-- The result array with distances as sums of squared differences. -/
def bySum : (⟨3, ![4, 2048, 32]⟩ : Shape).Idx → EReal := fun i =>
  entrySum X W B Op ⟨(i 0).val, (i 0).isLt⟩ ⟨(i 1).val, (i 1).isLt⟩ ⟨(i 2).val, (i 2).isLt⟩

/-- The result array with distances by the expanded square. -/
def byExpansion : (⟨3, ![4, 2048, 32]⟩ : Shape).Idx → EReal := fun i =>
  entryExpansion X W B Op ⟨(i 0).val, (i 0).isLt⟩ ⟨(i 1).val, (i 1).isLt⟩ ⟨(i 2).val, (i 2).isLt⟩

/-- A projected entry of real inputs is a real number. -/
theorem proj_real (hX : ∀ i, ∃ r : ℝ, X i = (r : EReal)) (hW : ∀ i, ∃ r : ℝ, W i = (r : EReal))
    (hB : ∀ i, ∃ r : ℝ, B i = (r : EReal)) (bi : Fin 4) (s : Fin 2048) (h : Fin 512) :
    ∃ r : ℝ, proj X W B bi s h = (r : EReal) := by
  choose X' hX' using hX
  choose W' hW' using hW
  choose B' hB' using hB
  refine ⟨(∑ e : Fin 768, X' (ix3 bi s e) * W' (ix2 h e)) + B' (ix1 h), ?_⟩
  unfold proj
  simp only [hX', hW', hB', ← EReal.coe_mul, coe_sum, ← EReal.coe_add]

/-- On real inputs the two arrangements agree entry by entry. -/
theorem entryExpansion_eq_entrySum (hX : ∀ i, ∃ r : ℝ, X i = (r : EReal)) (hW : ∀ i, ∃ r : ℝ, W i = (r : EReal))
    (hB : ∀ i, ∃ r : ℝ, B i = (r : EReal)) (hOp : ∀ i, ∃ r : ℝ, Op i = (r : EReal)) (bi : Fin 4) (s : Fin 2048) (o : Fin 32) :
    entryExpansion X W B Op bi s o = entrySum X W B Op bi s o := by
  unfold entryExpansion entrySum
  rw [softmaxPlain_eq_softmaxGuarded]
  congr 1
  funext k
  exact distExpand_eq_distSum _ _ (proj_real X W B hX hW hB bi s) (fun h => hOp (ix2 k h))

/-- On real inputs the two arrangements are the same array. -/
theorem byExpansion_eq_bySum (hX : ∀ i, ∃ r : ℝ, X i = (r : EReal)) (hW : ∀ i, ∃ r : ℝ, W i = (r : EReal))
    (hB : ∀ i, ∃ r : ℝ, B i = (r : EReal)) (hOp : ∀ i, ∃ r : ℝ, Op i = (r : EReal)) :
    byExpansion X W B Op = bySum X W B Op := by
  funext i
  unfold byExpansion bySum
  exact entryExpansion_eq_entrySum X W B Op hX hW hB hOp _ _ _

end Cert.Spec

end
-- ==== Proof.Finite.lean ====
/-
  The precondition says every input entry is a real number.

  The precondition is the conjunction, over the four arguments, of "every entry's absolute value is below plus infinity".
  An extended real whose absolute value `max x (-x)` is strictly below `+∞` is neither infinity, hence a real number.
-/
import proofs.«132923_j45260365365546_2_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.Finite

open Idealize.ShloMosaic Idealize.ShloMosaic.ValueIdx Cert.Pre_finite_inputs

instance : Subsingleton (⟨0, ![]⟩ : Shape).Idx := ⟨fun a b => funext fun d => d.elim0⟩

/-- The pattern of `+inf` denotes the top element. -/
theorem ofBits_inf : Ideal.ofBits .f32 0x7F800000#32 = ⊤ := by
  simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- One argument's conjunct: if "all entries have absolute value below plus infinity" holds, every entry is real. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf x) (broadcastInDim s ![] hb (constant (F := Ideal) (⟨0, ![]⟩ : Shape) .f32 0x7F800000#32)))
        (constantI (⟨0, ![]⟩ : Shape) 1 1#1) hr hu ix0 = 1#1) (i : s.Idx) : ∃ r : ℝ, x i = (r : EReal) := by
  have e1 := Host.reduce_andi_all _ _ hr hu ix0 e i
  have hbc : broadcastInDim s ![] hb (constant (F := Ideal) (⟨0, ![]⟩ : Shape) .f32 0x7F800000#32) i = Ideal.ofBits .f32 0x7F800000#32 :=
    broadcastInDim_apply _ hb _ i ix0 (fun a => a.elim0)
  have e2 : Ideal.cmp .olt (max (x i) (-(x i))) (broadcastInDim s ![] hb (constant (F := Ideal) (⟨0, ![]⟩ : Shape) .f32 0x7F800000#32) i) = 1#1 := e1
  rw [hbc] at e2
  exact real_of_abs_lt _ e2

/-- Under the precondition all four arguments have real entries. -/
theorem reals_of_pre [Cert.Pre_finite_inputs.Facts] (x0 : FVec Ideal S4x2048x768 .f32) (x1 : FVec Ideal S512x768 .f32)
    (x2 : FVec Ideal S512 .f32) (x3 : FVec Ideal S32x512 .f32) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have h0 : fn (F := Ideal) x0 x1 x2 x3 ix0 = 1#1 := congrFun h ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real x0 _ _ _ h0', all_real x1 _ _ _ h1, all_real x2 _ _ _ h2, all_real x3 _ _ _ h3⟩

end Cert.Finite

end
-- ==== Proof.RefValue.lean ====
/-
  The reference's result, read index by index, is `Spec.bySum` of its four arguments.

  Each stage of the reference is read at an index written by its coordinates (batch `bi`, position `s`, code `o`, hidden
  coordinate `h`): the projection with its bias, the squared distance to a code as a sum over `h` of squared differences,
  its negated root, the row's maximum and sum over the 32 codes, the quotient and the threshold. The broadcasts only move
  coordinates around; every composed index function is identified with the plain coordinate triple or pair it equals.
-/
import proofs.«132923_j45260365365546_2_alg».proof.Proof.Gen.ReferenceIdeal.Read
import proofs.«132923_j45260365365546_2_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S4x2048x768, .f32⟩ : BufTy).Contents (Elt Ideal)) (x1 : (⟨S512x768, .f32⟩ : BufTy).Contents (Elt Ideal))
  (x2 : (⟨S512, .f32⟩ : BufTy).Contents (Elt Ideal)) (x3 : (⟨S32x512, .f32⟩ : BufTy).Contents (Elt Ideal))

/-- The projection with its bias at `(bi, s, h)`. -/
theorem proj_apply (bi : Fin 4) (s : Fin 2048) (h : Fin 512) :
    val_main_v3 (F := Ideal) x0 x1 x2 (ix3 bi s h) = Cert.Spec.proj x0 x1 x2 bi s h := by
  rw [val_main_v3_apply, val_main_v0_apply, val_main_v2_apply, val_main_v1_apply]
  have e1 : ∀ k : Fin 768, lidx_main_v0 (ix3 bi s h) k = ix3 bi s k := fun k => funext fun a => by
    match a with | ⟨0, _⟩ => rfl | ⟨1, _⟩ => rfl | ⟨2, _⟩ => rfl
  have e2 : ∀ k : Fin 768, ridx_main_v0 (ix3 bi s h) k = ix2 h k := fun k => funext fun a => by
    match a with | ⟨0, _⟩ => rfl | ⟨1, _⟩ => rfl
  have e3 : idx_main_v1 (idx_main_v2 (ix3 bi s h)) = ix1 h := funext fun a => by
    match a with | ⟨0, _⟩ => rfl
  simp only [e1, e2, e3]
  rfl

/-- The squared distance of row `(bi, s)` to code `o`: the sum over `h` of the squared differences. -/
theorem dist_apply (bi : Fin 4) (s : Fin 2048) (o : Fin 32) :
    val_main_v10 (F := Ideal) x0 x1 x2 x3 (ix3 bi s o)
      = Cert.RowMath.distSum (Cert.Spec.proj x0 x1 x2 bi s) (Cert.Spec.code x3 o) := by
  rw [val_main_v10_apply]
  unfold Cert.RowMath.distSum
  refine congrArg₂ (· + ·) rfl (Finset.sum_congr rfl fun h _ => ?_)
  rw [val_main_v9_apply, val_main_v8_apply, val_main_v6_apply, val_main_v4_apply, val_main_v7_apply, val_main_v5_apply]
  have e1 : idx_main_v4 (idx_main_v6 (idx_main_v10 (ix3 bi s o) h)) = ix3 bi s h := funext fun a => by
    match a with | ⟨0, _⟩ => rfl | ⟨1, _⟩ => rfl | ⟨2, _⟩ => rfl
  have e2 : idx_main_v5 (idx_main_v7 (idx_main_v10 (ix3 bi s o) h)) = ix2 o h := funext fun a => by
    match a with | ⟨0, _⟩ => rfl | ⟨1, _⟩ => rfl
  rw [e1, e2, proj_apply]
  rfl

/-- The negated root of that distance. -/
theorem negRoot_apply (bi : Fin 4) (s : Fin 2048) (o : Fin 32) :
    val_main_v12 (F := Ideal) x0 x1 x2 x3 (ix3 bi s o)
      = -(Ideal.sqrt (Cert.RowMath.distSum (Cert.Spec.proj x0 x1 x2 bi s) (Cert.Spec.code x3 o))) := by
  rw [val_main_v12_apply, val_main_v11_apply, dist_apply]
  rfl

/-- The row's maximum over the 32 codes, folded from minus infinity. -/
theorem rowMax_apply (bi : Fin 4) (s : Fin 2048) :
    val_main_v13 (F := Ideal) x0 x1 x2 x3 (ix2 bi s)
      = (Finset.univ : Finset (Fin 32)).fold max (Ideal.ofBits .f32 0xFF800000#32)
          (fun k => val_main_v12 (F := Ideal) x0 x1 x2 x3 (ix3 bi s k)) := by
  have hR : S4x2048x32.Reduces [2] S4x2048 := by decide
  unfold val_main_v13
  refine (Host.reduce_eq_fold_single (FloatOps.maximumf (F := Ideal) (φ := .f32)) (val_main_v12 (F := Ideal) x0 x1 x2 x3)
    (val_main_cst_0 (F := Ideal)) reducesTo_S4x2048x32_S4x2048_d2 hR h_S_ (ix2 bi s)).trans ?_
  refine congrArg (fun f : Fin 32 → EReal => (Finset.univ : Finset (Fin 32)).fold max (Ideal.ofBits .f32 0xFF800000#32) f)
    (funext fun k => congrArg (val_main_v12 (F := Ideal) x0 x1 x2 x3) ?_)
  exact funext fun a => Fin.ext (by match a with | ⟨0, _⟩ => rfl | ⟨1, _⟩ => rfl | ⟨2, _⟩ => rfl)

/-- The exponential of the negated root less the (guarded) row maximum. -/
theorem exp_apply (bi : Fin 4) (s : Fin 2048) (o : Fin 32) :
    val_main_v19 (F := Ideal) x0 x1 x2 x3 (ix3 bi s o)
      = Ideal.exp (val_main_v12 (F := Ideal) x0 x1 x2 x3 (ix3 bi s o)
          - max (Ideal.ofBits .f32 0xFF800000#32) (val_main_v13 (F := Ideal) x0 x1 x2 x3 (ix2 bi s))) := by
  rw [val_main_v19_apply, val_main_v18_apply, val_main_v17_apply, val_main_v16_apply, val_main_v15_apply, val_main_v14_apply]
  have e : idx_main_v16 (idx_main_v17 (ix3 bi s o)) = ix2 bi s := funext fun a => by
    match a with | ⟨0, _⟩ => rfl | ⟨1, _⟩ => rfl
  rw [e]
  rfl

/-- The row's sum of exponentials, started from the zero pattern. -/
theorem rowSum_apply (bi : Fin 4) (s : Fin 2048) :
    val_main_v20 (F := Ideal) x0 x1 x2 x3 (ix2 bi s)
      = Ideal.ofBits .f32 0x00000000#32 + ∑ k : Fin 32, val_main_v19 (F := Ideal) x0 x1 x2 x3 (ix3 bi s k) := by
  rw [val_main_v20_apply]
  refine congrArg₂ (· + ·) rfl (Finset.sum_congr rfl fun k _ => congrArg _ ?_)
  exact funext fun a => Fin.ext (by match a with | ⟨0, _⟩ => rfl | ⟨1, _⟩ => rfl | ⟨2, _⟩ => rfl)

/-- The probability: the exponential over the row's sum. -/
theorem prob_apply (bi : Fin 4) (s : Fin 2048) (o : Fin 32) :
    val_main_v23 (F := Ideal) x0 x1 x2 x3 (ix3 bi s o)
      = Ideal.div (val_main_v19 (F := Ideal) x0 x1 x2 x3 (ix3 bi s o)) (val_main_v20 (F := Ideal) x0 x1 x2 x3 (ix2 bi s)) := by
  rw [val_main_v23_apply, val_main_v22_apply, val_main_v21_apply]
  have e : idx_main_v21 (idx_main_v22 (ix3 bi s o)) = ix2 bi s := funext fun a => by
    match a with | ⟨0, _⟩ => rfl | ⟨1, _⟩ => rfl
  rw [e]
  rfl

/-- The thresholded probability. -/
theorem out_apply (bi : Fin 4) (s : Fin 2048) (o : Fin 32) :
    val_main_v26 (F := Ideal) x0 x1 x2 x3 (ix3 bi s o)
      = Scalar.select (Ideal.cmp .olt (val_main_v23 (F := Ideal) x0 x1 x2 x3 (ix3 bi s o)) (Ideal.ofBits .f32 0x3E99999A#32))
          (Ideal.ofBits .f32 0x00000000#32) (val_main_v23 (F := Ideal) x0 x1 x2 x3 (ix3 bi s o)) := by
  rw [val_main_v26_apply, val_main_v25_apply, val_main_v24_apply, val_main_call0_v1_apply]
  rfl

/-- THE REFERENCE'S RESULT is `Spec.bySum` of its arguments. -/
theorem result_eq : val_main_v26 (F := Ideal) x0 x1 x2 x3 = Cert.Spec.bySum x0 x1 x2 x3 := by
  funext i
  obtain ⟨bi, s, o, rfl⟩ : ∃ (bi : Fin 4) (s : Fin 2048) (o : Fin 32), i = ix3 bi s o := ⟨i 0, i 1, i 2, eq_ix3 i⟩
  rw [out_apply, prob_apply, rowSum_apply]
  show _ = Cert.Spec.entrySum x0 x1 x2 x3 bi s o
  unfold Cert.Spec.entrySum Cert.RowMath.softmaxGuarded
  simp only [exp_apply, rowMax_apply, negRoot_apply]

end Cert.ReferenceIdeal.RefValue

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Payload.lean ====
/-
  What the kernel's body computes from its four loaded blocks, read at one entry of the output block.

  The body is cut into the stages its mathematics has — the projected block (a matrix product with the bias added row by
  row), the block of squared distances by the expanded square (row sums of squares, a second matrix product against the
  codebook, the clip at zero), the negated roots, the exponentials less the row maximum, the quotient by the row sum, and
  the threshold — and each stage is read at `(r, o)` (row `r` of the 1024, code `o` of the 32) in terms of the stage
  before. A matrix product into a zero accumulator is the plain sum over the contracted coordinate; a sum or maximum kept
  as a column and broadcast back reads the row's sum or maximum at every column; a change of float format is the identity.
  Put together, entry `(r, o)` is `RowMath.softmaxPlain` of the row of `RowMath.distExpand` distances.
-/
import proofs.«132923_j45260365365546_2_alg».proof.Proof.Gen.KernelIdeal.Skeleton
import proofs.«132923_j45260365365546_2_alg».proof.Proof.RowMath
import proofs.«132923_j45260365365546_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.ColumnLayout

/-! ## The two matrix products at an entry -/

theorem lhs1_0 (i : S1024x512.Idx) (q : dot_S1024x768_S512x768_S1024x512_1_1_0_0_n_n.contr.Idx) :
    (dot_S1024x768_S512x768_S1024x512_1_1_0_0_n_n.lhsIdx i q 0).val = (i 0).val := by
  unfold DotDims.lhsIdx
  rw [dif_neg (show ¬(0 : Fin S1024x768.rank) ∈ dot_S1024x768_S512x768_S1024x512_1_1_0_0_n_n.lhsBatch by decide), dif_pos (show (0 : Fin S1024x768.rank) ∈ dot_S1024x768_S512x768_S1024x512_1_1_0_0_n_n.lhsNonContracting by decide)]
  rfl
theorem lhs1_1 (i : S1024x512.Idx) (q : dot_S1024x768_S512x768_S1024x512_1_1_0_0_n_n.contr.Idx) :
    (dot_S1024x768_S512x768_S1024x512_1_1_0_0_n_n.lhsIdx i q 1).val = (q ⟨0, by decide⟩).val :=
  dot_S1024x768_S512x768_S1024x512_1_1_0_0_n_n.lhsIdx_val_of_single rfl i q
theorem rhs1_0 (i : S1024x512.Idx) (q : dot_S1024x768_S512x768_S1024x512_1_1_0_0_n_n.contr.Idx) :
    (dot_S1024x768_S512x768_S1024x512_1_1_0_0_n_n.rhsIdx i q 0).val = (i 1).val := by
  unfold DotDims.rhsIdx
  rw [dif_neg (show ¬(0 : Fin S512x768.rank) ∈ dot_S1024x768_S512x768_S1024x512_1_1_0_0_n_n.rhsBatch by decide), dif_pos (show (0 : Fin S512x768.rank) ∈ dot_S1024x768_S512x768_S1024x512_1_1_0_0_n_n.rhsNonContracting by decide)]
  rfl
theorem rhs1_1 (i : S1024x512.Idx) (q : dot_S1024x768_S512x768_S1024x512_1_1_0_0_n_n.contr.Idx) :
    (dot_S1024x768_S512x768_S1024x512_1_1_0_0_n_n.rhsIdx i q 1).val = (q ⟨0, by decide⟩).val :=
  dot_S1024x768_S512x768_S1024x512_1_1_0_0_n_n.rhsIdx_val_of_single rfl i q

/-- The first product, rows of `A` against rows of `Bm` over the 768 shared coordinates, into a zero accumulator. -/
theorem matmul1_apply (A : FVec Ideal S1024x768 .bf16) (Bm : FVec Ideal S512x768 .bf16) (r : Fin 1024) (h : Fin 512) :
    matmul dot_S1024x768_S512x768_S1024x512_1_1_0_0_n_n none A Bm (constant (F := Ideal) S1024x512 .f32 0x00000000#32) (ix2 r h)
      = ∑ e : Fin 768, A (ix2 r e) * Bm (ix2 h e) := by
  simp only [matmul]
  rw [Ideal.matmul_constant_zero_apply, ← Equiv.sum_comp (contrEquiv1 dot_S1024x768_S512x768_S1024x512_1_1_0_0_n_n 768 rfl rfl).symm]
  refine Finset.sum_congr rfl fun k _ => ?_
  have hk := contrEquiv1_symm_val dot_S1024x768_S512x768_S1024x512_1_1_0_0_n_n 768 rfl rfl k
  have el : dot_S1024x768_S512x768_S1024x512_1_1_0_0_n_n.lhsIdx (ix2 r h) ((contrEquiv1 dot_S1024x768_S512x768_S1024x512_1_1_0_0_n_n 768 rfl rfl).symm k) = ix2 r k := funext fun a => Fin.ext (by
    match a with
    | ⟨0, _⟩ => exact lhs1_0 _ _
    | ⟨1, _⟩ => exact (lhs1_1 _ _).trans hk)
  have er : dot_S1024x768_S512x768_S1024x512_1_1_0_0_n_n.rhsIdx (ix2 r h) ((contrEquiv1 dot_S1024x768_S512x768_S1024x512_1_1_0_0_n_n 768 rfl rfl).symm k) = ix2 h k := funext fun a => Fin.ext (by
    match a with
    | ⟨0, _⟩ => exact rhs1_0 _ _
    | ⟨1, _⟩ => exact (rhs1_1 _ _).trans hk)
  rw [el, er]

theorem lhs2_0 (i : S1024x32.Idx) (q : dot_S1024x512_S32x512_S1024x32_1_1_0_0_n_n.contr.Idx) :
    (dot_S1024x512_S32x512_S1024x32_1_1_0_0_n_n.lhsIdx i q 0).val = (i 0).val := by
  unfold DotDims.lhsIdx
  rw [dif_neg (show ¬(0 : Fin S1024x512.rank) ∈ dot_S1024x512_S32x512_S1024x32_1_1_0_0_n_n.lhsBatch by decide), dif_pos (show (0 : Fin S1024x512.rank) ∈ dot_S1024x512_S32x512_S1024x32_1_1_0_0_n_n.lhsNonContracting by decide)]
  rfl
theorem lhs2_1 (i : S1024x32.Idx) (q : dot_S1024x512_S32x512_S1024x32_1_1_0_0_n_n.contr.Idx) :
    (dot_S1024x512_S32x512_S1024x32_1_1_0_0_n_n.lhsIdx i q 1).val = (q ⟨0, by decide⟩).val :=
  dot_S1024x512_S32x512_S1024x32_1_1_0_0_n_n.lhsIdx_val_of_single rfl i q
theorem rhs2_0 (i : S1024x32.Idx) (q : dot_S1024x512_S32x512_S1024x32_1_1_0_0_n_n.contr.Idx) :
    (dot_S1024x512_S32x512_S1024x32_1_1_0_0_n_n.rhsIdx i q 0).val = (i 1).val := by
  unfold DotDims.rhsIdx
  rw [dif_neg (show ¬(0 : Fin S32x512.rank) ∈ dot_S1024x512_S32x512_S1024x32_1_1_0_0_n_n.rhsBatch by decide), dif_pos (show (0 : Fin S32x512.rank) ∈ dot_S1024x512_S32x512_S1024x32_1_1_0_0_n_n.rhsNonContracting by decide)]
  rfl
theorem rhs2_1 (i : S1024x32.Idx) (q : dot_S1024x512_S32x512_S1024x32_1_1_0_0_n_n.contr.Idx) :
    (dot_S1024x512_S32x512_S1024x32_1_1_0_0_n_n.rhsIdx i q 1).val = (q ⟨0, by decide⟩).val :=
  dot_S1024x512_S32x512_S1024x32_1_1_0_0_n_n.rhsIdx_val_of_single rfl i q

/-- The second product, rows of `A` against rows of `Bm` over the 512 shared coordinates, into a zero accumulator. -/
theorem matmul2_apply (A : FVec Ideal S1024x512 .bf16) (Bm : FVec Ideal S32x512 .bf16) (r : Fin 1024) (o : Fin 32) :
    matmul dot_S1024x512_S32x512_S1024x32_1_1_0_0_n_n none A Bm (constant (F := Ideal) S1024x32 .f32 0x00000000#32) (ix2 r o)
      = ∑ h : Fin 512, A (ix2 r h) * Bm (ix2 o h) := by
  simp only [matmul]
  rw [Ideal.matmul_constant_zero_apply, ← Equiv.sum_comp (contrEquiv1 dot_S1024x512_S32x512_S1024x32_1_1_0_0_n_n 512 rfl rfl).symm]
  refine Finset.sum_congr rfl fun k _ => ?_
  have hk := contrEquiv1_symm_val dot_S1024x512_S32x512_S1024x32_1_1_0_0_n_n 512 rfl rfl k
  have el : dot_S1024x512_S32x512_S1024x32_1_1_0_0_n_n.lhsIdx (ix2 r o) ((contrEquiv1 dot_S1024x512_S32x512_S1024x32_1_1_0_0_n_n 512 rfl rfl).symm k) = ix2 r k := funext fun a => Fin.ext (by
    match a with
    | ⟨0, _⟩ => exact lhs2_0 _ _
    | ⟨1, _⟩ => exact (lhs2_1 _ _).trans hk)
  have er : dot_S1024x512_S32x512_S1024x32_1_1_0_0_n_n.rhsIdx (ix2 r o) ((contrEquiv1 dot_S1024x512_S32x512_S1024x32_1_1_0_0_n_n 512 rfl rfl).symm k) = ix2 o k := funext fun a => Fin.ext (by
    match a with
    | ⟨0, _⟩ => exact rhs2_0 _ _
    | ⟨1, _⟩ => exact (rhs2_1 _ _).trans hk)
  rw [el, er]

/-! ## Row sums and the row maximum -/

/-- The sum of a row of a 1024 × 512 block. -/
theorem rowSum512 (v : FVec Ideal S1024x512 .f32) (r : Fin 1024) :
    multiReduction .add [1] S1024 v 0x00000000#32 reduces_S1024x512_S1024 (.inl rfl) rfl (ix1 r) = ∑ h : Fin 512, v (ix2 r h) := by
  refine (Ideal.multiReduction_add_single v 0x00000000#32 reduces_S1024x512_S1024 (.inl rfl) rfl (ix1 r)).trans ?_
  show ∑ k : Fin 512, v (reduces_S1024x512_S1024.lift (ix1 r) k) = _
  refine Finset.sum_congr rfl fun k _ => congrArg v ?_
  exact funext fun a => Fin.ext (by match a with | ⟨0, _⟩ => rfl | ⟨1, _⟩ => rfl)

/-- The sum of a row of the 32 × 512 codebook block. -/
theorem rowSumCode (v : FVec Ideal S32x512 .f32) (o : Fin 32) :
    multiReduction .add [1] S32 v 0x00000000#32 reduces_S32x512_S32 (.inl rfl) rfl (ix1 o) = ∑ h : Fin 512, v (ix2 o h) := by
  refine (Ideal.multiReduction_add_single v 0x00000000#32 reduces_S32x512_S32 (.inl rfl) rfl (ix1 o)).trans ?_
  show ∑ k : Fin 512, v (reduces_S32x512_S32.lift (ix1 o) k) = _
  refine Finset.sum_congr rfl fun k _ => congrArg v ?_
  exact funext fun a => Fin.ext (by match a with | ⟨0, _⟩ => rfl | ⟨1, _⟩ => rfl)

/-- The sum of a row of a 1024 × 32 block. -/
theorem rowSum32 (v : FVec Ideal S1024x32 .f32) (r : Fin 1024) :
    multiReduction .add [1] S1024 v 0x00000000#32 reduces_S1024x32_S1024 (.inl rfl) rfl (ix1 r) = ∑ k : Fin 32, v (ix2 r k) := by
  refine (Ideal.multiReduction_add_single v 0x00000000#32 reduces_S1024x32_S1024 (.inl rfl) rfl (ix1 r)).trans ?_
  show ∑ k : Fin 32, v (reduces_S1024x32_S1024.lift (ix1 r) k) = _
  refine Finset.sum_congr rfl fun k _ => congrArg v ?_
  exact funext fun a => Fin.ext (by match a with | ⟨0, _⟩ => rfl | ⟨1, _⟩ => rfl)

/-- The maximum of a row of a 1024 × 32 block, folded from minus infinity. -/
theorem rowMax32 (v : FVec Ideal S1024x32 .f32) (r : Fin 1024) :
    multiReduction .maximumf [1] S1024 v 0xFF800000#32 reduces_S1024x32_S1024 (.inl rfl) rfl (ix1 r)
      = (Finset.univ : Finset (Fin 32)).fold max (Ideal.ofBits .f32 0xFF800000#32) (fun k => v (ix2 r k)) := by
  refine (Ideal.multiReduction_maximumf_single v 0xFF800000#32 reduces_S1024x32_S1024 (.inl rfl) rfl (ix1 r)).trans ?_
  refine congrArg (fun f : Fin 32 → EReal => (Finset.univ : Finset (Fin 32)).fold max (Ideal.ofBits .f32 0xFF800000#32) f)
    (funext fun k => congrArg v ?_)
  exact funext fun a => Fin.ext (by match a with | ⟨0, _⟩ => rfl | ⟨1, _⟩ => rfl)

/-- A per-row number kept as a column and broadcast back over the 32 codes reads that number at every code. -/
theorem column_apply (w : FVec Ideal S1024 .f32) (r : Fin 1024) (o : Fin 32) :
    broadcastTo S1024x32 (shapeCast S1024x1 w shapeCasts_S1024_S1024x1) broadcasts_S1024x1_S1024x32 (ix2 r o) = w (ix1 r) :=
  (broadcastTo_a1_ab_apply _ broadcasts_S1024x1_S1024x32 r o).trans (shapeCast_a_a1_apply w shapeCasts_S1024_S1024x1 r 0)

/-! ## The stages -/

/-- The projected block: the loaded rows against `W`'s rows, plus the bias along every row. -/
def projBlk (x0 : FVec Ideal S1x1024x768 .f32) (x1 : FVec Ideal S512x768 .f32) (x2 : FVec Ideal S512 .f32) : FVec Ideal S1024x512 .f32 :=
  addf (matmul dot_S1024x768_S512x768_S1024x512_1_1_0_0_n_n none
      (truncf .bf16 (shapeCast S1024x768 x0 shapeCasts_S1x1024x768_S1024x768) bitsLt_bf16_f32)
      (truncf .bf16 x1 bitsLt_bf16_f32) (constant (F := Ideal) S1024x512 .f32 0x00000000#32))
    (broadcastTo S1024x512 (shapeCast S1x512 x2 shapeCasts_S512_S1x512) broadcasts_S1x512_S1024x512)

theorem projBlk_apply (x0 : FVec Ideal S1x1024x768 .f32) (x1 : FVec Ideal S512x768 .f32) (x2 : FVec Ideal S512 .f32)
    (r : Fin 1024) (h : Fin 512) :
    projBlk x0 x1 x2 (ix2 r h) = (∑ e : Fin 768, x0 (ix3 (0 : Fin 1) r e) * x1 (ix2 h e)) + x2 (ix1 h) := by
  unfold projBlk
  refine (addf_apply _ _ _).trans ?_
  refine congrArg₂ (· + ·) ((matmul1_apply _ _ r h).trans (Finset.sum_congr rfl fun e _ => ?_)) ?_
  · exact congrArg₂ (· * ·) (shapeCast_1ab_ab_apply x0 shapeCasts_S1x1024x768_S1024x768 r e) rfl
  · exact (broadcastTo_1b_ab_apply _ broadcasts_S1x512_S1024x512 r h).trans (shapeCast_a_1a_apply x2 shapeCasts_S512_S1x512 0 h)

/-- The block of squared distances by the expanded square, clipped at zero. -/
def distBlk (pj : FVec Ideal S1024x512 .f32) (x3 : FVec Ideal S32x512 .f32) : FVec Ideal S1024x32 .f32 :=
  maximumf
    (addf
      (subf
        (broadcastTo S1024x32 (shapeCast S1024x1 (multiReduction .add [1] S1024 (mulf pj pj) 0x00000000#32 reduces_S1024x512_S1024 (.inl rfl) rfl) shapeCasts_S1024_S1024x1) broadcasts_S1024x1_S1024x32)
        (mulf (broadcast S1024x32 (Scalar.ofBits (F := Ideal) .f32 0x40000000#32))
          (matmul dot_S1024x512_S32x512_S1024x32_1_1_0_0_n_n none (truncf .bf16 pj bitsLt_bf16_f32) (truncf .bf16 x3 bitsLt_bf16_f32)
            (constant (F := Ideal) S1024x32 .f32 0x00000000#32))))
      (broadcastTo S1024x32 (shapeCast S1x32 (multiReduction .add [1] S32 (mulf x3 x3) 0x00000000#32 reduces_S32x512_S32 (.inl rfl) rfl) shapeCasts_S32_S1x32) broadcasts_S1x32_S1024x32))
    (broadcast S1024x32 (Scalar.ofBits (F := Ideal) .f32 0x00000000#32))

theorem distBlk_apply (pj : FVec Ideal S1024x512 .f32) (x3 : FVec Ideal S32x512 .f32) (r : Fin 1024) (o : Fin 32) :
    distBlk pj x3 (ix2 r o) = Cert.RowMath.distExpand (fun h => pj (ix2 r h)) (fun h => x3 (ix2 o h)) := by
  unfold distBlk Cert.RowMath.distExpand
  refine (maximumf_apply _ _ _).trans (congrArg₂ max ?_ rfl)
  refine (addf_apply _ _ _).trans (congrArg₂ (· + ·) ((subf_apply _ _ _).trans (congrArg₂ (· - ·) ?_ ?_)) ?_)
  · exact (column_apply _ r o).trans (rowSum512 _ r)
  · exact (mulf_apply _ _ _).trans (congrArg₂ (· * ·) rfl (matmul2_apply _ _ r o))
  · exact (broadcastTo_1b_ab_apply _ broadcasts_S1x32_S1024x32 r o).trans
      ((shapeCast_a_1a_apply _ shapeCasts_S32_S1x32 0 o).trans (rowSumCode _ o))

/-- The negated roots, written `0 - √d`. -/
def negRootBlk (d : FVec Ideal S1024x32 .f32) : FVec Ideal S1024x32 .f32 :=
  subf (broadcast S1024x32 (Scalar.ofBits (F := Ideal) .f32 0x00000000#32)) (sqrt d)

theorem negRootBlk_apply (d : FVec Ideal S1024x32 .f32) (j : S1024x32.Idx) :
    negRootBlk d j = Ideal.ofBits .f32 0x00000000#32 - Ideal.sqrt (d j) := rfl

/-- The exponentials of a block less each row's maximum. -/
def expBlk (ds : FVec Ideal S1024x32 .f32) : FVec Ideal S1024x32 .f32 :=
  exp (subf ds (broadcastTo S1024x32 (shapeCast S1024x1 (multiReduction .maximumf [1] S1024 ds 0xFF800000#32 reduces_S1024x32_S1024 (.inl rfl) rfl) shapeCasts_S1024_S1024x1) broadcasts_S1024x1_S1024x32))

theorem expBlk_apply (ds : FVec Ideal S1024x32 .f32) (r : Fin 1024) (o : Fin 32) :
    expBlk ds (ix2 r o) = Ideal.exp (ds (ix2 r o)
      - (Finset.univ : Finset (Fin 32)).fold max (Ideal.ofBits .f32 0xFF800000#32) (fun k => ds (ix2 r k))) := by
  unfold expBlk
  show Ideal.exp (ds (ix2 r o) - _) = _
  exact congrArg (fun z => Ideal.exp (ds (ix2 r o) - z)) ((column_apply _ r o).trans (rowMax32 ds r))

/-- A block divided by each row's sum. -/
def probBlk (e : FVec Ideal S1024x32 .f32) : FVec Ideal S1024x32 .f32 :=
  divf e (broadcastTo S1024x32 (shapeCast S1024x1 (multiReduction .add [1] S1024 e 0x00000000#32 reduces_S1024x32_S1024 (.inl rfl) rfl) shapeCasts_S1024_S1024x1) broadcasts_S1024x1_S1024x32)

theorem probBlk_apply (e : FVec Ideal S1024x32 .f32) (r : Fin 1024) (o : Fin 32) :
    probBlk e (ix2 r o) = Ideal.div (e (ix2 r o)) (∑ k : Fin 32, e (ix2 r k)) := by
  unfold probBlk
  refine (divf_apply _ _ _).trans (congrArg (Ideal.div (e (ix2 r o))) ?_)
  exact (column_apply _ r o).trans (rowSum32 e r)

/-- The body's first payload is these stages composed. -/
theorem pay2_eq (x0 : Vec Ideal S1x1024x768 .f32) (x1 : Vec Ideal S512x768 .f32) (x2 : Vec Ideal S512 .f32) (x3 : Vec Ideal S32x512 .f32) :
    k0_pay2 x0 x1 x2 x3 = probBlk (expBlk (negRootBlk (distBlk (projBlk x0 x1 x2) x3))) := rfl

/-- The stored value at `(u, r, o)`: the probability, or zero where it is below the threshold. -/
theorem pay1_apply (v39 : FVec Ideal S1024x32 .f32) (u : Fin 1) (r : Fin 1024) (o : Fin 32) :
    k0_pay1 v39 (Scalar.ofBits (F := Ideal) .f32 0x3E99999A#32) (ix3 u r o)
      = Scalar.select (Ideal.cmp .olt (v39 (ix2 r o)) (Ideal.ofBits .f32 0x3E99999A#32)) (Ideal.ofBits .f32 0x00000000#32) (v39 (ix2 r o)) := by
  unfold k0_pay1
  exact shapeCast_ab_1ab_apply _ shapeCasts_S1024x32_S1x1024x32 u r o

/-- THE BODY'S STORED BLOCK at `(u, r, o)`, from the four loaded blocks. -/
theorem stored_apply (x0 : Vec Ideal S1x1024x768 .f32) (x1 : Vec Ideal S512x768 .f32) (x2 : Vec Ideal S512 .f32) (x3 : Vec Ideal S32x512 .f32)
    (u : Fin 1) (r : Fin 1024) (o : Fin 32) :
    k0_pay1 (k0_pay2 x0 x1 x2 x3) (Scalar.ofBits (F := Ideal) .f32 0x3E99999A#32) (ix3 u r o)
      = Cert.RowMath.softmaxPlain (fun k => Cert.RowMath.distExpand
          (fun h => (∑ e : Fin 768, x0 (ix3 (0 : Fin 1) r e) * x1 (ix2 h e)) + x2 (ix1 h)) (fun h => x3 (ix2 k h))) o := by
  rw [pay1_apply, pay2_eq]
  unfold Cert.RowMath.softmaxPlain
  simp only [probBlk_apply, expBlk_apply, negRootBlk_apply, distBlk_apply, projBlk_apply]

end Cert.KernelIdeal.Payload

end
-- ==== Proof.KernelValue.lean ====
/-
  From the blocks the grid points write to the whole result array.

  Grid point `t = (bi, si)` stages batch `bi`, rows `1024·si … 1024·si + 1023` of the first argument, the other three
  arguments whole, and writes back the same rows of batch `bi` of the result. So what the point writes is the body's stored
  block with every loaded entry read in the argument arrays at the matching place, which is that block of
  `Spec.byExpansion` of the arguments. The eight blocks tile the result array (row `s` of batch `bi` lies in the block of
  point `(bi, s / 1024)`), so after the run the array is `Spec.byExpansion` of the arguments.
-/
import proofs.«132923_j45260365365546_2_alg».proof.Proof.Gen.KernelIdeal.Frame
import proofs.«132923_j45260365365546_2_alg».proof.Proof.Gen.KernelIdeal.Value
import proofs.«132923_j45260365365546_2_alg».proof.Proof.Payload
import proofs.«132923_j45260365365546_2_alg».proof.Proof.Spec
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps over the eight grid points: the first input moves with the output along batch and row block, the
    other inputs stay at block zero, and the output's block indices stay in their ranges. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 3) ≤ 3 ∧ win0_4.index t (1 : Fin 3) ≤ 1 ∧ win0_4.index t (2 : Fin 3) = 0 :=
  (by decide +kernel : ∀ t : Fin grid0.N, _)

/-- Every (batch, row block) pair is some grid point's. -/
theorem idx_onto : ∀ (q0 : Fin 4) (q1 : Fin 2), ∃ t : Fin cfg0.N, win0_4.index t = ![q0.val, q1.val, 0] :=
  (by decide +kernel : ∀ (q0 : Fin 4) (q1 : Fin 2), ∃ t : Fin grid0.N, win0_4.index t = ![q0.val, q1.val, 0])

/-! ## The input blocks read in the argument arrays -/

/-- Entry `(0, r, e)` of the first input's block at point `t` is the argument at batch `bi`, row `s`, when `bi` and `s` are
    the point's batch and the block's row `r`. -/
theorem iblk0_apply (c : Dev nD) (t : Fin cfg0.N) (r : Fin 1024) (e : Fin 768) (bi : Fin 4) (s : Fin 2048)
    (hbi : bi.val = win0_4.index t (0 : Fin 3)) (hs : s.val = win0_4.index t (1 : Fin 3) * 1024 + r.val) :
    (iblk m c 0 t : Vec Ideal S1x1024x768 .f32) (ix3 (0 : Fin 1) r e) = (V m c main_arg0 : S4x2048x768.Idx → EReal) (ix3 bi s e) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = bi.val; omega
  | ⟨1, _⟩ => show win0_0.index t (1 : Fin 3) * 1024 + 1 * r.val = s.val; omega
  | ⟨2, _⟩ => show win0_0.index t (2 : Fin 3) * 768 + 1 * e.val = e.val; omega

/-- The second input's block is the whole weight matrix. -/
theorem iblk1_apply (c : Dev nD) (t : Fin cfg0.N) (h : Fin 512) (e : Fin 768) :
    (iblk m c 1 t : Vec Ideal S512x768 .f32) (ix2 h e) = (V m c main_arg1 : S512x768.Idx → EReal) (ix2 h e) := by
  obtain ⟨-, -, -, e3, e4, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 512 + 1 * h.val = h.val; omega
  | ⟨1, _⟩ => show win0_1.index t (1 : Fin 2) * 768 + 1 * e.val = e.val; omega

/-- The third input's block is the whole bias. -/
theorem iblk2_apply (c : Dev nD) (t : Fin cfg0.N) (h : Fin 512) :
    (iblk m c 2 t : Vec Ideal S512 .f32) (ix1 h) = (V m c main_arg2 : S512.Idx → EReal) (ix1 h) := by
  obtain ⟨-, -, -, -, -, e5, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 1) * 512 + 1 * h.val = h.val; omega

/-- The fourth input's block is the whole codebook. -/
theorem iblk3_apply (c : Dev nD) (t : Fin cfg0.N) (k : Fin 32) (h : Fin 512) :
    (iblk m c 3 t : Vec Ideal S32x512 .f32) (ix2 k h) = (V m c main_arg3 : S32x512.Idx → EReal) (ix2 k h) := by
  obtain ⟨-, -, -, -, -, -, e6, e7, -⟩ := idx_facts t
  unfold iblk
  rw [View.read_apply]
  show V m c main_arg3 _ = V m c main_arg3 _
  refine congrArg (V m c main_arg3) (funext fun a => Fin.ext ?_)
  match a with
  | ⟨0, _⟩ => show win0_3.index t (0 : Fin 2) * 32 + 1 * k.val = k.val; omega
  | ⟨1, _⟩ => show win0_3.index t (1 : Fin 2) * 512 + 1 * h.val = h.val; omega

/-! ## What a point writes back -/

/-- The body's stored entry `(u, r, o)` at point `t` is entry `(bi, s, o')` of `Spec.byExpansion` of the arguments, for the
    point's batch `bi`, the array row `s` of the block's row `r`, and `o' = o`. -/
theorem stored_eq_entry (c : Dev nD) (t : Fin cfg0.N) (u : Fin 1) (r : Fin 1024) (o : Fin 32) (bi : Fin 4) (s : Fin 2048) (o' : Fin 32)
    (hbi : bi.val = win0_4.index t (0 : Fin 3)) (hs : s.val = win0_4.index t (1 : Fin 3) * 1024 + r.val) (ho : o'.val = o.val) :
    k0_pay1 (k0_pay2 (iblk m c 0 t) (iblk m c 1 t) (iblk m c 2 t) (iblk m c 3 t)) (Scalar.ofBits (F := Ideal) .f32 0x3E99999A#32) (ix3 u r o)
      = Cert.Spec.entryExpansion (V m c main_arg0) (V m c main_arg1) (V m c main_arg2) (V m c main_arg3) bi s o' := by
  obtain rfl : o' = o := Fin.ext ho
  refine (Payload.stored_apply (iblk m c 0 t) (iblk m c 1 t) (iblk m c 2 t) (iblk m c 3 t) u r o').trans ?_
  unfold Cert.Spec.entryExpansion Cert.Spec.proj Cert.Spec.code
  simp only [iblk0_apply m c t _ _ bi s hbi hs, iblk1_apply m c t, iblk2_apply m c t, iblk3_apply m c t]

/-- WHAT POINT `t` WRITES BACK is block `t` of `Spec.byExpansion` of the argument arrays. -/
theorem flushed_eq (c : Dev nD) (t : Fin cfg0.N) :
    (dats m 0 c).flushed 4 t = ((cfg0.win 4).blk t).view.read (Elt Ideal)
      (Cert.Spec.byExpansion (V m c main_arg0) (V m c main_arg1) (V m c main_arg2) (V m c main_arg3)) := by
  rw [Cert.KernelIdeal.Value.flushed4]
  unfold out0_4
  rw [View.canon_unit_zero hz3]
  simp only [View.ld_unit_zero (S := S1x1024x768) hz3, View.ld_unit_zero (S := S512x768) hz2, View.ld_unit_zero (S := S512) hz1,
    View.ld_unit_zero (S := S32x512) hz2]
  obtain ⟨-, -, -, -, -, -, -, -, b0, b1, b2⟩ := idx_facts t
  refine funext fun (j : S1x1024x32.Idx) => ?_
  obtain ⟨u, r, o, rfl⟩ : ∃ (u : Fin 1) (r : Fin 1024) (o : Fin 32), j = ix3 u r o := ⟨j 0, j 1, j 2, eq_ix3 j⟩
  show k0_pay1 (k0_pay2 (iblk m c 0 t) (iblk m c 1 t) (iblk m c 2 t) (iblk m c 3 t)) (Scalar.ofBits (F := Ideal) .f32 0x3E99999A#32) (ix3 u r o)
    = Cert.Spec.byExpansion (V m c main_arg0) (V m c main_arg1) (V m c main_arg2) (V m c main_arg3) (((cfg0.win 4).blk t).view.emb (ix3 u r o))
  unfold Cert.Spec.byExpansion
  have hu : u.val = 0 := by omega
  refine stored_eq_entry m c t u r o _ _ _ ?_ ?_ ?_
  · show win0_4.index t (0 : Fin 3) * 1 + 1 * u.val = win0_4.index t (0 : Fin 3); omega
  · show win0_4.index t (1 : Fin 3) * 1024 + 1 * r.val = win0_4.index t (1 : Fin 3) * 1024 + r.val; omega
  · show win0_4.index t (2 : Fin 3) * 32 + 1 * o.val = o.val; omega

/-! ## The blocks tile the array -/

/-- An index of the result array is in point `t`'s block iff each coordinate is in the block's range on its axis. -/
theorem mem_blk (t : Fin cfg0.N) (i : S4x2048x32.Idx) :
    i ∈ ((cfg0.win 4).blk t).view.set ↔ ∀ a : Fin 3, win0_4.index t a * S1x1024x32.size a ≤ (i a).val
      ∧ (i a).val < win0_4.index t a * S1x1024x32.size a + S1x1024x32.size a := by
  show i ∈ ((View.whole main_v0).slice (win0_4.rect t)).set ↔ _
  rw [View.set_slice_whole, Rect.mem_set_unit]
  exact Iff.rfl

/-- Every index of the result array is in the block of the point of its batch and row block. -/
theorem cover (i : S4x2048x32.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 32 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 32 ≤ (i 2).val ∧ (i 2).val < win0_4.index t (2 : Fin 3) * 32 + 32; omega

/-- THE RESULT ARRAY after the run is `Spec.byExpansion` of the argument arrays. -/
theorem final (c : Dev nD) : (dats m 0 c).arrAt 4 cfg0.N
    = Cert.Spec.byExpansion (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run, read: the result array at `Spec.byExpansion` of the arguments, the arguments unchanged. -/
theorem run : θ_run defs (onTc (τ := τ) (main (F := Ideal))) ⟨m, fun _ => 0, ρ⟩ fun r => ∀ c : Dev nD,
      r.2.mem ((c : Thread nD τ).loc main_v0)
        = Cert.Spec.byExpansion (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.lean ====
/-
  A projection, the distances of each projected row to a codebook of 32 rows, and a thresholded softmax of the negated
  distances: the kernel against its plain reference, as extended reals.

  Both programs project each row `x` of the input to `p = x Wᵀ + b`, take for each code row `q` the negated distance
  `-‖p - q‖`, apply a softmax over the 32 codes and zero the probabilities below the threshold. They differ in how the
  squared distance is formed. The reference sums the squared differences `∑ (p h - q h)²`. The kernel expands the square,
  `‖p‖² - 2 p·q + ‖q‖²` (row sums of squares and one more matrix product), and clips the result at zero. On real numbers
  the two are equal by the binomial formula, and the clip is idle because a sum of squares is not negative; with an
  infinite entry the expansion would meet `∞ - ∞`, so this step uses the precondition that every input is finite. The
  remaining differences are neutral elements (`0 - x` for `-x`, one more maximum against minus infinity, a sum started
  from zero) and hold for all extended reals; changes of float format are the identity, and a matrix product into a zero
  accumulator is the plain contraction on both sides.

  The kernel works on eight blocks of 1024 rows; each block's result is the matching block of one whole-array function of
  the arguments, the blocks tile the result, and the reference's operations compose to the same function index by index.
  The ideal pass rewrote nothing, so the idealization conjunct is trivial.
-/
import proofs.«132923_j45260365365546_2_alg».proof.Defs
import proofs.«132923_j45260365365546_2_alg».proof.Proof.Gen.Kernel
import proofs.«132923_j45260365365546_2_alg».proof.Proof.Gen.Kernel.Skeleton
import proofs.«132923_j45260365365546_2_alg».proof.Proof.Gen.Kernel.Launch
import proofs.«132923_j45260365365546_2_alg».proof.Proof.Gen.Kernel.Points
import proofs.«132923_j45260365365546_2_alg».proof.Proof.Gen.Kernel.Frame
import proofs.«132923_j45260365365546_2_alg».proof.Proof.Gen.KernelIdeal
import proofs.«132923_j45260365365546_2_alg».proof.Proof.Gen.KernelIdeal.Skeleton
import proofs.«132923_j45260365365546_2_alg».proof.Proof.Gen.KernelIdeal.Launch
import proofs.«132923_j45260365365546_2_alg».proof.Proof.Gen.KernelIdeal.Points
import proofs.«132923_j45260365365546_2_alg».proof.Proof.Gen.KernelIdeal.Frame
import proofs.«132923_j45260365365546_2_alg».proof.Proof.Gen.ReferenceIdeal
import proofs.«132923_j45260365365546_2_alg».proof.Proof.Gen.Pre_finite_inputs
import proofs.«132923_j45260365365546_2_alg».proof.Proof.Gen.KernelIdeal.Value
import proofs.«132923_j45260365365546_2_alg».proof.Proof.Gen.ReferenceIdeal.Run
import proofs.«132923_j45260365365546_2_alg».proof.Proof.Gen.ReferenceIdeal.Read
import proofs.«132923_j45260365365546_2_alg».proof.Proof.Spec
import proofs.«132923_j45260365365546_2_alg».proof.Proof.Finite
import proofs.«132923_j45260365365546_2_alg».proof.Proof.RefValue
import proofs.«132923_j45260365365546_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the expanded-square arrangement of the arguments, the reference's at the
    sum-of-squared-differences arrangement of arguments that agree; on finite inputs the two are one array. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq,
    (hagree c).1, (hagree c).2.1, (hagree c).2.2.1, (hagree c).2.2.2]
  obtain ⟨h0, h1, h2, h3⟩ := Cert.Finite.reals_of_pre _ _ _ _ (hpre c)
  exact (Cert.Spec.byExpansion_eq_bySum _ _ _ _ h0 h1 h2 h3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
